-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x32 : Shape := ⟨2, ![131072, 32]⟩
abbrev S1048576 : Shape := ⟨1, ![1048576]⟩
abbrev S512 : Shape := ⟨1, ![512]⟩
abbrev S1 : Shape := ⟨1, ![1]⟩
abbrev S_ : Shape := ⟨0, ![]⟩

class Facts : Prop where
  bcast_S_S131072x32 : S_.BroadcastsInDim S131072x32 (![] : Fin 0 → Fin S131072x32.rank)
  reducesTo_S131072x32_S_d0_1 : S131072x32.ReducesTo [0, 1] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S131072x32 .f32) (main_arg1 : FVec F S131072x32 .f32) (main_arg2 : IVec S1048576 32) (main_arg3 : IVec S1048576 32) (main_arg4 : IVec S512 32) (main_arg5 : IVec S512 32) (main_arg6 : FVec F S1 .f32) : IVec S_ 1 :=
  let main_v0 : FVec F S131072x32 .f32 := Host.absf main_arg0
  let main_cst : FVec F S_ .f32 := constant S_ .f32 0x7F800000#32
  let main_v1 : FVec F S131072x32 .f32 := broadcastInDim S131072x32 ![] bcast_S_S131072x32 main_cst
  let main_v2 : IVec S131072x32 1 := cmpf .olt main_v0 main_v1
  let main_c : IVec S_ 1 := constantI S_ 1 1#1
  let main_v3 : IVec S_ 1 := (fun x v => Host.reduce IntOp.andi x v reducesTo_S131072x32_S_d0_1 h_S_) main_v2 main_c
  let main_v4 : FVec F S131072x32 .f32 := Host.absf main_arg1
  let main_cst_0 : FVec F S_ .f32 := constant S_ .f32 0x7F800000#32
  let main_v5 : FVec F S131072x32 .f32 := broadcastInDim S131072x32 ![] bcast_S_S131072x32 main_cst_0
  let main_v6 : IVec S131072x32 1 := cmpf .olt main_v4 main_v5
  let main_c_1 : IVec S_ 1 := constantI S_ 1 1#1
  let main_v7 : IVec S_ 1 := (fun x v => Host.reduce IntOp.andi x v reducesTo_S131072x32_S_d0_1 h_S_) main_v6 main_c_1
  let main_v8 : IVec S_ 1 := andi main_v3 main_v7
  let main_v9 : FVec F S1 .f32 := Host.absf main_arg6
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S131072x32 : Shape := ⟨2, ![131072, 32]⟩
abbrev S1048576 : Shape := ⟨1, ![1048576]⟩
abbrev S512 : Shape := ⟨1, ![512]⟩
abbrev S1 : Shape := ⟨1, ![1]⟩
abbrev S_ : Shape := ⟨0, ![]⟩
abbrev S131072 : Shape := ⟨1, ![131072]⟩
abbrev S1048576x1 : Shape := ⟨2, ![1048576, 1]⟩
abbrev S512x256 : Shape := ⟨2, ![512, 256]⟩
abbrev S512x256x32 : Shape := ⟨3, ![512, 256, 32]⟩
abbrev S16x1x32 : Shape := ⟨3, ![16, 1, 32]⟩
abbrev S32x256x32 : Shape := ⟨3, ![32, 256, 32]⟩
abbrev S32x256 : Shape := ⟨2, ![32, 256]⟩
abbrev S1x1x32 : Shape := ⟨3, ![1, 1, 32]⟩
abbrev S32x256x256 : Shape := ⟨3, ![32, 256, 256]⟩
abbrev S32x256x1 : Shape := ⟨3, ![32, 256, 1]⟩
abbrev S32x1x256 : Shape := ⟨3, ![32, 1, 256]⟩
abbrev S32 : Shape := ⟨1, ![32]⟩

abbrev nBuf : Space → Nat
  | .hbm => 39
  | .vmem => 10
  | .smem => 0
  | _ => 0

abbrev bufTy : (tb : Table) → Fin (tcTables nBuf tb) → BufTy
  | .hbm, ⟨0, _⟩ => ⟨S131072x32, .f32⟩
  | .hbm, ⟨1, _⟩ => ⟨S131072x32, .f32⟩
  | .hbm, ⟨2, _⟩ => ⟨S1048576, .i32⟩
  | .hbm, ⟨3, _⟩ => ⟨S1048576, .i32⟩
  | .hbm, ⟨4, _⟩ => ⟨S512, .i32⟩
  | .hbm, ⟨5, _⟩ => ⟨S512, .i32⟩
  | .hbm, ⟨6, _⟩ => ⟨S1, .f32⟩
  | .hbm, ⟨7, _⟩ => ⟨S_, .f32⟩
  | .hbm, ⟨8, _⟩ => ⟨S1048576, .f32⟩
  | .hbm, ⟨9, _⟩ => ⟨S_, .f32⟩
  | .hbm, ⟨10, _⟩ => ⟨S131072, .f32⟩
  | .hbm, ⟨11, _⟩ => ⟨S1048576x1, .i32⟩
  | .hbm, ⟨12, _⟩ => ⟨S131072, .f32⟩
  | .hbm, ⟨13, _⟩ => ⟨S_, .f32⟩
  | .hbm, ⟨14, _⟩ => ⟨S131072, .f32⟩
  | .hbm, ⟨15, _⟩ => ⟨S131072, .f32⟩
  | .hbm, ⟨16, _⟩ => ⟨S_, .f32⟩
  | .hbm, ⟨17, _⟩ => ⟨S1048576, .f32⟩
  | .hbm, ⟨18, _⟩ => ⟨S_, .f32⟩
  | .hbm, ⟨19, _⟩ => ⟨S131072, .f32⟩
  | .hbm, ⟨20, _⟩ => ⟨S1048576x1, .i32⟩
  | .hbm, ⟨21, _⟩ => ⟨S131072, .f32⟩
  | .hbm, ⟨22, _⟩ => ⟨S_, .f32⟩
  | .hbm, ⟨23, _⟩ => ⟨S131072, .f32⟩
  | .hbm, ⟨24, _⟩ => ⟨S131072, .f32⟩
  | .hbm, ⟨25, _⟩ => ⟨S_, .f32⟩
  | .hbm, ⟨26, _⟩ => ⟨S131072, .f32⟩
  | .hbm, ⟨27, _⟩ => ⟨S131072, .f32⟩
  | .hbm, ⟨28, _⟩ => ⟨S512x256, .f32⟩
  | .hbm, ⟨29, _⟩ => ⟨S131072, .f32⟩
  | .hbm, ⟨30, _⟩ => ⟨S131072, .f32⟩
  | .hbm, ⟨31, _⟩ => ⟨S512x256, .f32⟩
  | .hbm, ⟨32, _⟩ => ⟨S512x256x32, .f32⟩
  | .hbm, ⟨33, _⟩ => ⟨S512x256x32, .f32⟩
  | .hbm, ⟨34, _⟩ => ⟨S16x1x32, .f32⟩
  | .hbm, ⟨35, _⟩ => ⟨S512, .f32⟩
  | .hbm, ⟨36, _⟩ => ⟨S512, .i32⟩
  | .hbm, ⟨37, _⟩ => ⟨S512, .f32⟩
  | .hbm, ⟨38, _⟩ => ⟨S512, .f32⟩
  | .local _ .vmem, ⟨0, _⟩ => ⟨S32x256x32, .f32⟩
  | .local _ .vmem, ⟨1, _⟩ => ⟨S32x256x32, .f32⟩
  | .local _ .vmem, ⟨2, _⟩ => ⟨S32x256x32, .f32⟩
  | .local _ .vmem, ⟨3, _⟩ => ⟨S32x256x32, .f32⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S32x256, .f32⟩
  | .local _ .vmem, ⟨8, _⟩ => ⟨S1x1x32, .f32⟩
  | .local _ .vmem, ⟨9, _⟩ => ⟨S1x1x32, .f32⟩
  | _, _ => ⟨S131072x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1048576 : S_.BroadcastsInDim S1048576 (![] : Fin 0 → Fin S1048576.rank)
  bcast_S_S131072 : S_.BroadcastsInDim S131072 (![] : Fin 0 → Fin S131072.rank)
  bcast_S1048576_S1048576x1_0 : S1048576.BroadcastsInDim S1048576x1 (![0] : Fin 1 → Fin S1048576x1.rank)
  shapeCasts_S1_S_ : S1.ShapeCasts S_
  shapeCasts_S131072_S512x256 : S131072.ShapeCasts S512x256
  shapeCasts_S131072x32_S512x256x32 : S131072x32.ShapeCasts S512x256x32
  inb_S32x256x32_S32x256x32_0_0_0 : ∀ a, (![0, 0, 0] : Fin 3 → Nat) a + S32x256x32.size a ≤ S32x256x32.size a
  h_S32x256x32 : 0 < S32x256x32.numel
  shapeCasts_S32x256x32_S32x256x32 : S32x256x32.ShapeCasts S32x256x32
  inb_S32x256_S32x256_0_0 : ∀ a, (![0, 0] : Fin 2 → Nat) a + S32x256.size a ≤ S32x256.size a
  h_S32x256 : 0 < S32x256.numel
  shapeCasts_S32x256_S32x256 : S32x256.ShapeCasts S32x256
  bitsLt_bf16_f32 : FTy.bits .bf16 < FTy.bits .f32
  reduces_S32x256x32_S32x256 : S32x256x32.Reduces [2] S32x256
  shapeCasts_S32x256_S32x256x1 : S32x256.ShapeCasts S32x256x1
  shapeCasts_S32x256_S32x1x256 : S32x256.ShapeCasts S32x1x256
  broadcasts_S32x256x1_S32x256x256 : S32x256x1.Broadcasts S32x256x256
  broadcasts_S32x1x256_S32x256x256 : S32x1x256.Broadcasts S32x256x256
  reduces_S32x256x256_S32x256 : S32x256x256.Reduces [2] S32x256
  reduces_S32x256x256_S32x256_2 : S32x256x256.Reduces [1] S32x256
  reduces_S32x256_S32 : S32x256.Reduces [1] S32
  shapeCasts_S32_S1x1x32 : S32.ShapeCasts S1x1x32
  inb_S1x1x32_S1x1x32_0_0_0 : ∀ a, (![0, 0, 0] : Fin 3 → Nat) a + S1x1x32.size a ≤ S1x1x32.size a
  h_S1x1x32 : 0 < S1x1x32.numel
  shapeCasts_S16x1x32_S512 : S16x1x32.ShapeCasts S512
  scatter_S131072_S1048576x1_S1048576_n_0_0_1_wf : ScatterDims.WF S131072 S1048576x1 S1048576 [] [0] [0] 1
  dot_S32x256x32_S32x256x32_S32x256x256_2_2_1_1_0_0_wf : DotDims.WF S32x256x32 S32x256x32 S32x256x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x32.size a ≤ S512x256x32.size a
  hwx0_0 : ∀ i : grid0.Coords, EltTy.bits .f32 = 32 ∨ (Rect.block (s := S512x256x32) S32x256x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256x32.size a ≤ S512x256x32.size a
  hwx0_1 : ∀ i : grid0.Coords, EltTy.bits .f32 = 32 ∨ (Rect.block (s := S512x256x32) S32x256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S512x256.size a
  hwx0_2 : ∀ i : grid0.Coords, EltTy.bits .f32 = 32 ∨ (Rect.block (s := S512x256) S32x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S512x256.size a
  hwx0_3 : ∀ i : grid0.Coords, EltTy.bits .f32 = 32 ∨ (Rect.block (s := S512x256) S32x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x32.size a ≤ S16x1x32.size a
  hwx0_4 : ∀ i : grid0.Coords, EltTy.bits .f32 = 32 ∨ (Rect.block (s := S16x1x32) S1x1x32.size (cc0_transform_4 i) (hinb0_4 i)).WholeWords (EltTy.packing .f32)

variable [Facts₀]

def scatter_S131072_S1048576x1_S1048576_n_0_0_1 : ScatterDims S131072 S1048576x1 S1048576 where
  updateWindowDims := []
  insertedWindowDims := [0]
  scatterDimsToOperandDims := [0]
  indexVectorDim := 1
  wf := scatter_S131072_S1048576x1_S1048576_n_0_0_1_wf
def dot_S32x256x32_S32x256x32_S32x256x256_2_2_1_1_0_0 : DotDims S32x256x32 S32x256x32 S32x256x256 where
  lhsContracting := [2]
  rhsContracting := [2]
  lhsNonContracting := [1]
  rhsNonContracting := [1]
  lhsBatch := [0]
  rhsBatch := [0]
  wf := dot_S32x256x32_S32x256x32_S32x256x256_2_2_1_1_0_0_wf

abbrev win0_0 : Pipeline.Window sig grid0 :=
  Pipeline.Window.ofSpec (Memref.whole main_v19) S32x256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S32x256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S32x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S32x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x1x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x32 : Shape := ⟨2, ![131072, 32]⟩
abbrev S1048576 : Shape := ⟨1, ![1048576]⟩
abbrev S512 : Shape := ⟨1, ![512]⟩
abbrev S1 : Shape := ⟨1, ![1]⟩
abbrev S_ : Shape := ⟨0, ![]⟩
abbrev S131072 : Shape := ⟨1, ![131072]⟩
abbrev S1048576x1 : Shape := ⟨2, ![1048576, 1]⟩
abbrev S512x256x32 : Shape := ⟨3, ![512, 256, 32]⟩
abbrev S512x256 : Shape := ⟨2, ![512, 256]⟩
abbrev S512x256x1 : Shape := ⟨3, ![512, 256, 1]⟩
abbrev S512x1x256 : Shape := ⟨3, ![512, 1, 256]⟩
abbrev S512x256x256 : Shape := ⟨3, ![512, 256, 256]⟩
abbrev S512x256x257 : Shape := ⟨3, ![512, 256, 257]⟩
abbrev S512x1 : Shape := ⟨2, ![512, 1]⟩
abbrev S512x257 : Shape := ⟨2, ![512, 257]⟩
abbrev S512x1x257 : Shape := ⟨3, ![512, 1, 257]⟩
abbrev S512x257x257 : Shape := ⟨3, ![512, 257, 257]⟩

abbrev nBuf : Space → Nat
  | .hbm => 69
  | .vmem => 0
  | .smem => 0
  | _ => 0

abbrev bufTy : (tb : Table) → Fin (tcTables nBuf tb) → BufTy
  | .hbm, ⟨0, _⟩ => ⟨S131072x32, .f32⟩
  | .hbm, ⟨1, _⟩ => ⟨S131072x32, .f32⟩
  | .hbm, ⟨2, _⟩ => ⟨S1048576, .i32⟩
  | .hbm, ⟨3, _⟩ => ⟨S1048576, .i32⟩
  | .hbm, ⟨4, _⟩ => ⟨S512, .i32⟩
  | .hbm, ⟨5, _⟩ => ⟨S512, .i32⟩
  | .hbm, ⟨6, _⟩ => ⟨S1, .f32⟩
  | .hbm, ⟨7, _⟩ => ⟨S_, .f32⟩
  | .hbm, ⟨8, _⟩ => ⟨S1048576, .f32⟩
  | .hbm, ⟨9, _⟩ => ⟨S_, .f32⟩
  | .hbm, ⟨10, _⟩ => ⟨S131072, .f32⟩
  | .hbm, ⟨11, _⟩ => ⟨S1048576x1, .i32⟩
  | .hbm, ⟨12, _⟩ => ⟨S131072, .f32⟩
  | .hbm, ⟨13, _⟩ => ⟨S_, .f32⟩
  | .hbm, ⟨14, _⟩ => ⟨S131072, .f32⟩
  | .hbm, ⟨15, _⟩ => ⟨S131072, .f32⟩
  | .hbm, ⟨16, _⟩ => ⟨S_, .f32⟩
  | .hbm, ⟨17, _⟩ => ⟨S1048576, .f32⟩
  | .hbm, ⟨18, _⟩ => ⟨S_, .f32⟩
  | .hbm, ⟨19, _⟩ => ⟨S131072, .f32⟩
  | .hbm, ⟨20, _⟩ => ⟨S1048576x1, .i32⟩
  | .hbm, ⟨21, _⟩ => ⟨S131072, .f32⟩
  | .hbm, ⟨22, _⟩ => ⟨S_, .f32⟩
  | .hbm, ⟨23, _⟩ => ⟨S131072, .f32⟩
  | .hbm, ⟨24, _⟩ => ⟨S131072, .f32⟩
  | .hbm, ⟨25, _⟩ => ⟨S_, .f32⟩
  | .hbm, ⟨26, _⟩ => ⟨S512x256x32, .f32⟩
  | .hbm, ⟨27, _⟩ => ⟨S512x256x32, .f32⟩
  | .hbm, ⟨28, _⟩ => ⟨S512x256, .f32⟩
  | .hbm, ⟨29, _⟩ => ⟨S512x256, .f32⟩
  | .hbm, ⟨30, _⟩ => ⟨S512x256x32, .f32⟩
  | .hbm, ⟨31, _⟩ => ⟨S_, .f32⟩
  | .hbm, ⟨32, _⟩ => ⟨S512x256, .f32⟩
  | .hbm, ⟨33, _⟩ => ⟨S512x256x32, .f32⟩
  | .hbm, ⟨34, _⟩ => ⟨S_, .f32⟩
  | .hbm, ⟨35, _⟩ => ⟨S512x256, .f32⟩
  | .hbm, ⟨36, _⟩ => ⟨S512x256x1, .f32⟩
  | .hbm, ⟨37, _⟩ => ⟨S512x1x256, .f32⟩
  | .hbm, ⟨38, _⟩ => ⟨S512x256x256, .f32⟩
  | .hbm, ⟨39, _⟩ => ⟨S512x256x256, .f32⟩
  | .hbm, ⟨40, _⟩ => ⟨S512x256x256, .f32⟩
  | .hbm, ⟨41, _⟩ => ⟨S512x256x256, .f32⟩
  | .hbm, ⟨42, _⟩ => ⟨S_, .f32⟩
  | .hbm, ⟨43, _⟩ => ⟨S512x256x256, .f32⟩
  | .hbm, ⟨44, _⟩ => ⟨S512x256x256, .f32⟩
  | .hbm, ⟨45, _⟩ => ⟨S512x256x256, .f32⟩
  | .hbm, ⟨46, _⟩ => ⟨S512x256, .f32⟩
  | .hbm, ⟨47, _⟩ => ⟨S512x256, .f32⟩
  | .hbm, ⟨48, _⟩ => ⟨S512x256x1, .f32⟩
  | .hbm, ⟨49, _⟩ => ⟨S512x256x257, .f32⟩
  | .hbm, ⟨50, _⟩ => ⟨S512x256, .f32⟩
  | .hbm, ⟨51, _⟩ => ⟨S512x256, .f32⟩
  | .hbm, ⟨52, _⟩ => ⟨S_, .f32⟩
  | .hbm, ⟨53, _⟩ => ⟨S512x1, .f32⟩
  | .hbm, ⟨54, _⟩ => ⟨S512x257, .f32⟩
  | .hbm, ⟨55, _⟩ => ⟨S512x1x257, .f32⟩
  | .hbm, ⟨56, _⟩ => ⟨S512x257x257, .f32⟩
  | .hbm, ⟨57, _⟩ => ⟨S_, .f32⟩
  | .hbm, ⟨58, _⟩ => ⟨S512x257, .f32⟩
  | .hbm, ⟨59, _⟩ => ⟨S_, .f32⟩
  | .hbm, ⟨60, _⟩ => ⟨S512, .f32⟩
  | .hbm, ⟨61, _⟩ => ⟨S_, .f32⟩
  | .hbm, ⟨62, _⟩ => ⟨S512x257, .f32⟩
  | .hbm, ⟨63, _⟩ => ⟨S_, .f32⟩
  | .hbm, ⟨64, _⟩ => ⟨S512, .f32⟩
  | .hbm, ⟨65, _⟩ => ⟨S512, .i32⟩
  | .hbm, ⟨66, _⟩ => ⟨S512, .f32⟩
  | .hbm, ⟨67, _⟩ => ⟨S512, .f32⟩
  | .hbm, ⟨68, _⟩ => ⟨S512, .f32⟩
  | _, _ => ⟨S131072x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_cst_11 : Ref sig .tc := ⟨.hbm, 61, rfl⟩
abbrev main_v42 : Ref sig .tc := ⟨.hbm, 62, rfl⟩
abbrev main_cst_12 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]

class Facts₀ : Prop where
  bcast_S_S1048576 : S_.BroadcastsInDim S1048576 (![] : Fin 0 → Fin S1048576.rank)
  bcast_S_S131072 : S_.BroadcastsInDim S131072 (![] : Fin 0 → Fin S131072.rank)
  bcast_S1048576_S1048576x1_0 : S1048576.BroadcastsInDim S1048576x1 (![0] : Fin 1 → Fin S1048576x1.rank)
  shapeCasts_S1_S_ : S1.ShapeCasts S_
  shapeCasts_S131072x32_S512x256x32 : S131072x32.ShapeCasts S512x256x32
  shapeCasts_S131072_S512x256 : S131072.ShapeCasts S512x256
  reducesTo_S512x256x32_S512x256_d2 : S512x256x32.ReducesTo [2] S512x256
  h_S_ : 0 < S_.numel
  bcast_S512x256_S512x256x1_0_1 : S512x256.BroadcastsInDim S512x256x1 (![0, 1] : Fin 2 → Fin S512x256x1.rank)
  bcast_S512x256_S512x1x256_0_2 : S512x256.BroadcastsInDim S512x1x256 (![0, 2] : Fin 2 → Fin S512x1x256.rank)
  bcast_S512x256x1_S512x256x256_0_1_2 : S512x256x1.BroadcastsInDim S512x256x256 (![0, 1, 2] : Fin 3 → Fin S512x256x256.rank)
  bcast_S512x1x256_S512x256x256_0_1_2 : S512x1x256.BroadcastsInDim S512x256x256 (![0, 1, 2] : Fin 3 → Fin S512x256x256.rank)
  bcast_S_S512x256x256 : S_.BroadcastsInDim S512x256x256 (![] : Fin 0 → Fin S512x256x256.rank)
  bcast_S_S512x256 : S_.BroadcastsInDim S512x256 (![] : Fin 0 → Fin S512x256.rank)
  concatenates_S512x256x256_S512x256x1_S512x256x257_d2 : Shape.Concatenates [S512x256x256, S512x256x1] S512x256x257 2
  bcast_S_S512x1 : S_.BroadcastsInDim S512x1 (![] : Fin 0 → Fin S512x1.rank)
  concatenates_S512x256_S512x1_S512x257_d1 : Shape.Concatenates [S512x256, S512x1] S512x257 1
  bcast_S512x257_S512x1x257_0_2 : S512x257.BroadcastsInDim S512x1x257 (![0, 2] : Fin 2 → Fin S512x1x257.rank)
  concatenates_S512x256x257_S512x1x257_S512x257x257_d1 : Shape.Concatenates [S512x256x257, S512x1x257] S512x257x257 1
  reducesTo_S512x257x257_S512x257_d1 : S512x257x257.ReducesTo [1] S512x257
  reducesTo_S512x257_S512_d1 : S512x257.ReducesTo [1] S512
  reducesTo_S512x257x257_S512x257_d2 : S512x257x257.ReducesTo [2] S512x257
  scatter_S131072_S1048576x1_S1048576_n_0_0_1_wf : ScatterDims.WF S131072 S1048576x1 S1048576 [] [0] [0] 1
  dot_S512x256x32_S512x256x32_S512x256x256_2_2_1_1_0_0_wf : DotDims.WF S512x256x32 S512x256x32 S512x256x256 [2] [2] [1] [1] [0] [0]

variable [Facts₀]

def scatter_S131072_S1048576x1_S1048576_n_0_0_1 : ScatterDims S131072 S1048576x1 S1048576 where
  updateWindowDims := []
  insertedWindowDims := [0]
  scatterDimsToOperandDims := [0]
  indexVectorDim := 1
  wf := scatter_S131072_S1048576x1_S1048576_n_0_0_1_wf
def dot_S512x256x32_S512x256x32_S512x256x256_2_2_1_1_0_0 : DotDims S512x256x32 S512x256x32 S512x256x256 where
  lhsContracting := [2]
  rhsContracting := [2]
  lhsNonContracting := [1]
  rhsNonContracting := [1]
  lhsBatch := [0]
  rhsBatch := [0]
  wf := dot_S512x256x32_S512x256x32_S512x256x256_2_2_1_1_0_0_wf

class Facts : Prop extends Facts₀ where

variable [Facts]
-- ==== Proof.PadMin.lean ====
/-
  One graph's value, and the law that joins the two programs.

  For one graph the data are two families of 256 feature rows of length 32 (`a`, `b`) and two families of
  256 node costs (`c1`, `c2`).  With `sq a i = ∑ k, a i k * a i k` the squared distance is
  `dist i j = (sq a i + sq b j) - two * ∑ k, a i k * b j k`.  The kernel forms

      (∑ j, min (min_i dist i j) (c2 j)) + min (min_i c1 i) Z
    + (∑ i, min (min_j dist i j) (c1 i)) + min (min_j c2 j) Z

  every minimum a fold of `min` from a starting value `I`.  The reference instead borders the 256 × 256
  matrix `dist` with the column `c1`, the row `c2` and the corner `Z`, takes the minimum of every column
  and of every row of the 257 × 257 matrix, and sums the 257 minima.  A fold of `min` over `Fin (n + 1)`
  is the fold over the first `n` entries, `min` the last; a sum over `Fin (n + 1)` is the sum over the first
  `n` entries plus the last: so the two agree, for any starting value `I` and any corner `Z`, using only
  that `min` and `+` on the extended reals are commutative and associative — no entry need be finite.
-/
import Mathlib.Data.EReal.Basic
import Mathlib.Data.EReal.Operations
import Mathlib.Data.Fintype.Basic
import Mathlib.Algebra.BigOperators.Fin
import Mathlib.Data.Finset.Fold
import Mathlib.Data.Fintype.Fin

noncomputable section

namespace Cert.PadMin

open Finset

/-- A fold of `min` over `Fin (n + 1)`: the fold over the first `n` entries, then the last entry. -/
theorem fold_min_castSucc {n : Nat} (I : EReal) (f : Fin (n + 1) → EReal) :
    (univ : Finset (Fin (n + 1))).fold min I f
      = min ((univ : Finset (Fin n)).fold min I fun i => f i.castSucc) (f (Fin.last n)) := by
  rw [Fin.univ_castSuccEmb, Finset.fold_cons, Finset.fold_map, min_comm]
  rfl

/-- The squared distance between row `i` of `a` and row `j` of `b`, as both programs compute it. -/
def dist (two : EReal) (a b : Fin 256 → Fin 32 → EReal) (i j : Fin 256) : EReal :=
  ((∑ k, a i k * a i k) + ∑ k, b j k * b j k) - two * ∑ k, a i k * b j k

/-- One graph's value in the kernel's arrangement. -/
def graphVal (I Z two : EReal) (a b : Fin 256 → Fin 32 → EReal) (c1 c2 : Fin 256 → EReal) : EReal :=
  ((∑ j, min ((univ : Finset (Fin 256)).fold min I fun i => dist two a b i j) (c2 j))
      + min ((univ : Finset (Fin 256)).fold min I c1) Z)
    + ((∑ i, min ((univ : Finset (Fin 256)).fold min I fun j => dist two a b i j) (c1 i))
      + min ((univ : Finset (Fin 256)).fold min I c2) Z)

/-- The bordered matrix's column minima and row minima, summed, are the kernel's arrangement. -/
theorem bordered_eq {n : Nat} (I Z : EReal) (D : Fin n → Fin n → EReal) (c1 c2 : Fin n → EReal)
    (P : Fin (n + 1) → Fin (n + 1) → EReal)
    (hD : ∀ i j, P i.castSucc j.castSucc = D i j) (h1 : ∀ i, P i.castSucc (Fin.last n) = c1 i)
    (h2 : ∀ j, P (Fin.last n) j.castSucc = c2 j) (hZ : P (Fin.last n) (Fin.last n) = Z) :
    ((∑ j : Fin (n + 1), (univ : Finset (Fin (n + 1))).fold min I fun i => P i j)
        + ∑ i : Fin (n + 1), (univ : Finset (Fin (n + 1))).fold min I fun j => P i j)
      = ((∑ j, min ((univ : Finset (Fin n)).fold min I fun i => D i j) (c2 j))
            + min ((univ : Finset (Fin n)).fold min I c1) Z)
          + ((∑ i, min ((univ : Finset (Fin n)).fold min I fun j => D i j) (c1 i))
            + min ((univ : Finset (Fin n)).fold min I c2) Z) := by
  simp only [Fin.sum_univ_castSucc, fold_min_castSucc, hD, h1, h2, hZ]

end Cert.PadMin

end
-- ==== Proof.GraphSpec.lean ====
/-
  The result, graph by graph, as one function of the argument arrays.

  The two feature arrays hold 512 graphs of 256 nodes each, node `i` of graph `g` in row `g * 256 + i`;
  the two node-cost arrays `C1`, `C2` (one entry per node: the node's degree plus one) are laid out the same
  way, and every cost is scaled by the one scalar `c0`.  Graph `g`'s value is `PadMin.graphVal` of its rows and
  scaled costs; the minima start from the pattern of +∞, the corner and the sums' padding are the pattern of 0,
  and the cross term is scaled by the pattern of 2 — each kept as the pattern both programs print, never evaluated.
-/
import Idealize.ShloMosaic.PureOps.Ideal
import Idealize.ShloMosaic.Lib.ValueIdx
import proofs.«109039_j3994319585319_2_alg».proof.Proof.PadMin

noncomputable section

namespace Cert.PadMin

open Idealize.ShloMosaic Idealize.ShloMosaic.ValueIdx

/-- Row `g * 256 + i`: node `i` of graph `g`. -/
def row (g : Fin 512) (i : Fin 256) : Fin 131072 := ⟨g.val * 256 + i.val, by have := g.isLt; have := i.isLt; omega⟩

@[simp] theorem row_val (g : Fin 512) (i : Fin 256) : (row g i).val = g.val * 256 + i.val := rfl

/-- The starting value of every minimum: the pattern of +∞. -/
abbrev I : EReal := Ideal.ofBits .f32 0x7F800000#32
/-- The corner of the bordered matrix: the pattern of 0. -/
abbrev Z : EReal := Ideal.ofBits .f32 0x00000000#32
/-- The factor of the cross term: the pattern of 2. -/
abbrev two : EReal := Ideal.ofBits .f32 0x40000000#32

/-- Graph `g`'s value from the argument arrays. -/
def G (X1 X2 : (⟨2, ![131072, 32]⟩ : Shape).Idx → EReal) (C1 C2 : (⟨1, ![131072]⟩ : Shape).Idx → EReal) (c0 : EReal)
    (g : Fin 512) : EReal :=
  graphVal I Z two (fun i k => X1 (ix2 (row g i) k)) (fun j k => X2 (ix2 (row g j) k))
    (fun i => c0 * C1 (ix1 (row g i))) (fun j => c0 * C2 (ix1 (row g j)))

end Cert.PadMin

end
-- ==== Proof.RefRead.lean ====
/-
  The reference program's value, graph by graph.

  The reference borders each graph's 256 × 256 matrix of squared distances with the column of the first
  family's scaled node costs, the row of the second family's scaled node costs and a zero corner, takes the
  minimum of every column and of every row of the 257 × 257 matrix, and adds the two sums of 257 minima.
  Read entry by entry the bordered matrix is exactly the matrix `PadMin.bordered_eq` speaks of, so the
  result at graph `g` is `PadMin.G` of the argument arrays.
-/
import proofs.«109039_j3994319585319_2_alg».proof.Proof.Gen.ReferenceIdeal.Read
import proofs.«109039_j3994319585319_2_alg».proof.Proof.GraphSpec
import Idealize.ShloMosaic.Lib.ValueIdx
import Idealize.ShloMosaic.Lib.Pipeline.Value
import Idealize.ShloMosaic.PureOps.Ideal.Laws
noncomputable section
open Idealize.ShloMosaic Idealize.ShloMosaic.ValueIdx
namespace Cert.ReferenceIdeal.RefValue
open Cert.ReferenceIdeal Cert.ReferenceIdeal.Gen Cert.ReferenceIdeal.Read

/-! ### Where the layout operations read -/

/-- The reshape of the feature rows: entry `(g, i, k)` is entry `k` of row `g * 256 + i`. -/
theorem idx13_eq (g : Fin 512) (i : Fin 256) (k : Fin 32) :
    idx_main_v13 (ix3 g i k) = ix2 (Cert.PadMin.row g i) k :=
  funext fun a => Fin.ext (by
    match a with
    | ⟨0, _⟩ =>
      show ((g.val * 256 + i.val) * 32 + k.val) / 32 = g.val * 256 + i.val
      have := k.isLt; omega
    | ⟨1, _⟩ =>
      show ((g.val * 256 + i.val) * 32 + k.val) % 32 = k.val
      have := k.isLt; omega)

theorem idx14_eq (g : Fin 512) (i : Fin 256) (k : Fin 32) :
    idx_main_v14 (ix3 g i k) = ix2 (Cert.PadMin.row g i) k :=
  funext fun a => Fin.ext (by
    match a with
    | ⟨0, _⟩ =>
      show ((g.val * 256 + i.val) * 32 + k.val) / 32 = g.val * 256 + i.val
      have := k.isLt; omega
    | ⟨1, _⟩ =>
      show ((g.val * 256 + i.val) * 32 + k.val) % 32 = k.val
      have := k.isLt; omega)

/-- The reshape of the node costs: entry `(g, i)` is entry `g * 256 + i`. -/
theorem idx15_eq (g : Fin 512) (i : Fin 256) : idx_main_v15 (ix2 g i) = ix1 (Cert.PadMin.row g i) :=
  funext fun a => Fin.ext (by match a with | ⟨0, _⟩ => rfl)

theorem idx16_eq (g : Fin 512) (i : Fin 256) : idx_main_v16 (ix2 g i) = ix1 (Cert.PadMin.row g i) :=
  funext fun a => Fin.ext (by match a with | ⟨0, _⟩ => rfl)

/-! ### The squared distances -/

/-- The squared norm of row `i` of graph `g`, first family. -/
theorem v18_eq (x0 : (⟨S131072x32, .f32⟩ : BufTy).Contents (Elt Ideal)) (g : Fin 512) (i : Fin 256) :
    val_main_v18 (F := Ideal) x0 (ix2 g i)
      = ∑ k : Fin 32, x0 (ix2 (Cert.PadMin.row g i) k) * x0 (ix2 (Cert.PadMin.row g i) k) := by
  rw [val_main_v18_apply, val_main_cst_5_apply]
  show Ideal.ofBits .f32 0x00000000#32 + _ = _
  rw [Ideal.ofBits_zero_f32, zero_add]
  refine Finset.sum_congr rfl fun k _ => ?_
  have e : idx_main_v18 (ix2 g i) k = ix3 g i k :=
    funext fun a => Fin.ext (by match a with | ⟨0, _⟩ => rfl | ⟨1, _⟩ => rfl | ⟨2, _⟩ => rfl)
  rw [e, val_main_v17_apply, val_main_v13_apply, idx13_eq]
  rfl

/-- The squared norm of row `j` of graph `g`, second family. -/
theorem v20_eq (x1 : (⟨S131072x32, .f32⟩ : BufTy).Contents (Elt Ideal)) (g : Fin 512) (j : Fin 256) :
    val_main_v20 (F := Ideal) x1 (ix2 g j)
      = ∑ k : Fin 32, x1 (ix2 (Cert.PadMin.row g j) k) * x1 (ix2 (Cert.PadMin.row g j) k) := by
  rw [val_main_v20_apply, val_main_cst_6_apply]
  show Ideal.ofBits .f32 0x00000000#32 + _ = _
  rw [Ideal.ofBits_zero_f32, zero_add]
  refine Finset.sum_congr rfl fun k _ => ?_
  have e : idx_main_v20 (ix2 g j) k = ix3 g j k :=
    funext fun a => Fin.ext (by match a with | ⟨0, _⟩ => rfl | ⟨1, _⟩ => rfl | ⟨2, _⟩ => rfl)
  rw [e, val_main_v19_apply, val_main_v14_apply, idx14_eq]
  rfl

/-- The cross term of rows `i` and `j` of graph `g`. -/
theorem v26_eq (x0 x1 : (⟨S131072x32, .f32⟩ : BufTy).Contents (Elt Ideal)) (g : Fin 512) (i j : Fin 256) :
    val_main_v26 (F := Ideal) x0 x1 (ix3 g i j)
      = ∑ k : Fin 32, x0 (ix2 (Cert.PadMin.row g i) k) * x1 (ix2 (Cert.PadMin.row g j) k) := by
  rw [val_main_v26_apply]
  refine Finset.sum_congr rfl fun k _ => ?_
  have el : lidx_main_v26 (ix3 g i j) k = ix3 g i k :=
    funext fun a => Fin.ext (by match a with | ⟨0, _⟩ => rfl | ⟨1, _⟩ => rfl | ⟨2, _⟩ => rfl)
  have er : ridx_main_v26 (ix3 g i j) k = ix3 g j k :=
    funext fun a => Fin.ext (by match a with | ⟨0, _⟩ => rfl | ⟨1, _⟩ => rfl | ⟨2, _⟩ => rfl)
  rw [el, er, val_main_v13_apply, val_main_v14_apply, idx13_eq, idx14_eq]

/-- Entry `(g, i, j)` of the distance array is the squared distance of the two rows. -/
theorem v29_eq (x0 x1 : (⟨S131072x32, .f32⟩ : BufTy).Contents (Elt Ideal)) (g : Fin 512) (i j : Fin 256) :
    val_main_v29 (F := Ideal) x0 x1 (ix3 g i j)
      = Cert.PadMin.dist Cert.PadMin.two (fun i k => x0 (ix2 (Cert.PadMin.row g i) k))
          (fun j k => x1 (ix2 (Cert.PadMin.row g j) k)) i j := by
  have e1 : idx_main_v21 (idx_main_v23 (ix3 g i j)) = ix2 g i :=
    funext fun a => Fin.ext (by match a with | ⟨0, _⟩ => rfl | ⟨1, _⟩ => rfl)
  have e2 : idx_main_v22 (idx_main_v24 (ix3 g i j)) = ix2 g j :=
    funext fun a => Fin.ext (by match a with | ⟨0, _⟩ => rfl | ⟨1, _⟩ => rfl)
  rw [val_main_v29_apply, val_main_v25_apply, val_main_v28_apply, val_main_v23_apply, val_main_v21_apply, e1,
    v18_eq, val_main_v24_apply, val_main_v22_apply, e2, v20_eq, v26_eq, val_main_v27_apply, val_main_cst_7_apply]
  rfl

/-! ### The scaled node costs -/

theorem v31_eq (x2 : (⟨S1048576, .i32⟩ : BufTy).Contents (Elt Ideal)) (x6 : (⟨S1, .f32⟩ : BufTy).Contents (Elt Ideal))
    (g : Fin 512) (i : Fin 256) :
    val_main_v31 (F := Ideal) x2 x6 (ix2 g i)
      = val_main_v12 (F := Ideal) x6 ix0 * val_main_v5 (F := Ideal) x2 (ix1 (Cert.PadMin.row g i)) := by
  have e0 : idx_main_v30 (ix2 g i) = ix0 := funext fun a => a.elim0
  rw [val_main_v31_apply, val_main_v30_apply, val_main_v15_apply, idx15_eq, e0]
  rfl

theorem v35_eq (x3 : (⟨S1048576, .i32⟩ : BufTy).Contents (Elt Ideal)) (x6 : (⟨S1, .f32⟩ : BufTy).Contents (Elt Ideal))
    (g : Fin 512) (j : Fin 256) :
    val_main_v35 (F := Ideal) x3 x6 (ix2 g j)
      = val_main_v12 (F := Ideal) x6 ix0 * val_main_v11 (F := Ideal) x3 (ix1 (Cert.PadMin.row g j)) := by
  have e0 : idx_main_v34 (ix2 g j) = ix0 := funext fun a => a.elim0
  rw [val_main_v35_apply, val_main_v34_apply, val_main_v16_apply, idx16_eq, e0]
  rfl

/-! ### The bordered matrix, piece by piece -/

/-- Above the last row the bordered array is the distance array with the cost column appended. -/
theorem v39_top (x0 x1 : (⟨S131072x32, .f32⟩ : BufTy).Contents (Elt Ideal)) (x2 x3 : (⟨S1048576, .i32⟩ : BufTy).Contents (Elt Ideal)) (x6 : (⟨S1, .f32⟩ : BufTy).Contents (Elt Ideal))
    (g : Fin 512) (i : Fin 256) (j : Fin 257) :
    val_main_v39 (F := Ideal) x0 x1 x2 x3 x6 (ix3 g i.castSucc j)
      = val_main_v33 (F := Ideal) x0 x1 x2 x6 (ix3 g i j) := by
  unfold val_main_v39
  exact concatenate_pair_apply_left (t := S512x257x257) (s₁ := S512x256x257) (s₂ := S512x1x257) _ _ _ _
    (ix3 g i.castSucc j) rfl (ix3 g i j : S512x256x257.Idx)
    (fun b => by match b with | ⟨0, _⟩ => rfl | ⟨1, _⟩ => rfl | ⟨2, _⟩ => rfl)

/-- The last row of the bordered array is the second family's cost row with the zero appended. -/
theorem v39_bot (x0 x1 : (⟨S131072x32, .f32⟩ : BufTy).Contents (Elt Ideal)) (x2 x3 : (⟨S1048576, .i32⟩ : BufTy).Contents (Elt Ideal)) (x6 : (⟨S1, .f32⟩ : BufTy).Contents (Elt Ideal))
    (g : Fin 512) (j : Fin 257) :
    val_main_v39 (F := Ideal) x0 x1 x2 x3 x6 (ix3 g (Fin.last 256) j)
      = val_main_v37 (F := Ideal) x3 x6 (ix2 g j) := by
  unfold val_main_v39
  refine (concatenate_pair_apply_right (t := S512x257x257) (s₁ := S512x256x257) (s₂ := S512x1x257) _ _ _ _
    (ix3 g (Fin.last 256) j) rfl rfl (ix3 g (0 : Fin 1) j : S512x1x257.Idx)
    (fun b hb => by
      match b with
      | ⟨0, _⟩ => rfl
      | ⟨1, _⟩ => exact absurd rfl hb
      | ⟨2, _⟩ => rfl)
    rfl).trans ?_
  rw [val_main_v38_apply]
  exact congrArg _ (funext fun a => Fin.ext (by match a with | ⟨0, _⟩ => rfl | ⟨1, _⟩ => rfl))

/-- Left of the last column: the distance array. -/
theorem v33_left (x0 x1 : (⟨S131072x32, .f32⟩ : BufTy).Contents (Elt Ideal)) (x2 : (⟨S1048576, .i32⟩ : BufTy).Contents (Elt Ideal)) (x6 : (⟨S1, .f32⟩ : BufTy).Contents (Elt Ideal))
    (g : Fin 512) (i j : Fin 256) :
    val_main_v33 (F := Ideal) x0 x1 x2 x6 (ix3 g i j.castSucc) = val_main_v29 (F := Ideal) x0 x1 (ix3 g i j) := by
  unfold val_main_v33
  exact concatenate_pair_apply_left (t := S512x256x257) (s₁ := S512x256x256) (s₂ := S512x256x1) _ _ _ _
    (ix3 g i j.castSucc) rfl (ix3 g i j : S512x256x256.Idx)
    (fun b => by match b with | ⟨0, _⟩ => rfl | ⟨1, _⟩ => rfl | ⟨2, _⟩ => rfl)

/-- The last column: the first family's scaled costs. -/
theorem v33_right (x0 x1 : (⟨S131072x32, .f32⟩ : BufTy).Contents (Elt Ideal)) (x2 : (⟨S1048576, .i32⟩ : BufTy).Contents (Elt Ideal)) (x6 : (⟨S1, .f32⟩ : BufTy).Contents (Elt Ideal))
    (g : Fin 512) (i : Fin 256) :
    val_main_v33 (F := Ideal) x0 x1 x2 x6 (ix3 g i (Fin.last 256)) = val_main_v31 (F := Ideal) x2 x6 (ix2 g i) := by
  unfold val_main_v33
  refine (concatenate_pair_apply_right (t := S512x256x257) (s₁ := S512x256x256) (s₂ := S512x256x1) _ _ _ _
    (ix3 g i (Fin.last 256)) rfl rfl (ix3 g i (0 : Fin 1) : S512x256x1.Idx)
    (fun b hb => by
      match b with
      | ⟨0, _⟩ => rfl
      | ⟨1, _⟩ => rfl
      | ⟨2, _⟩ => exact absurd rfl hb)
    rfl).trans ?_
  rw [val_main_v32_apply]
  exact congrArg _ (funext fun a => Fin.ext (by match a with | ⟨0, _⟩ => rfl | ⟨1, _⟩ => rfl))

/-- The cost row left of its last entry: the second family's scaled costs. -/
theorem v37_left (x3 : (⟨S1048576, .i32⟩ : BufTy).Contents (Elt Ideal)) (x6 : (⟨S1, .f32⟩ : BufTy).Contents (Elt Ideal))
    (g : Fin 512) (j : Fin 256) :
    val_main_v37 (F := Ideal) x3 x6 (ix2 g j.castSucc) = val_main_v35 (F := Ideal) x3 x6 (ix2 g j) := by
  unfold val_main_v37
  exact concatenate_pair_apply_left (t := S512x257) (s₁ := S512x256) (s₂ := S512x1) _ _ _ _
    (ix2 g j.castSucc) rfl (ix2 g j : S512x256.Idx)
    (fun b => by match b with | ⟨0, _⟩ => rfl | ⟨1, _⟩ => rfl)

/-- The cost row's last entry: the pattern of zero. -/
theorem v37_right (x3 : (⟨S1048576, .i32⟩ : BufTy).Contents (Elt Ideal)) (x6 : (⟨S1, .f32⟩ : BufTy).Contents (Elt Ideal))
    (g : Fin 512) :
    val_main_v37 (F := Ideal) x3 x6 (ix2 g (Fin.last 256)) = Cert.PadMin.Z := by
  unfold val_main_v37
  refine (concatenate_pair_apply_right (t := S512x257) (s₁ := S512x256) (s₂ := S512x1) _ _ _ _
    (ix2 g (Fin.last 256)) rfl rfl (ix2 g (0 : Fin 1) : S512x1.Idx)
    (fun b hb => by
      match b with
      | ⟨0, _⟩ => rfl
      | ⟨1, _⟩ => exact absurd rfl hb)
    rfl).trans ?_
  rw [val_main_v36_apply, val_main_cst_8_apply]
  rfl

/-! ### The minima over one axis, and the assembly -/

theorem red1 : S512x257x257.Reduces [1] S512x257 := by decide
theorem red2 : S512x257x257.Reduces [2] S512x257 := by decide

/-- Column `j` of graph `g`: the minimum, from the pattern of +∞, over the 257 rows. -/
theorem v40_eq (x0 x1 : (⟨S131072x32, .f32⟩ : BufTy).Contents (Elt Ideal)) (x2 x3 : (⟨S1048576, .i32⟩ : BufTy).Contents (Elt Ideal)) (x6 : (⟨S1, .f32⟩ : BufTy).Contents (Elt Ideal))
    (g : Fin 512) (j : Fin 257) :
    val_main_v40 (F := Ideal) x0 x1 x2 x3 x6 (ix2 g j)
      = (Finset.univ : Finset (Fin 257)).fold min Cert.PadMin.I
          fun i => val_main_v39 (F := Ideal) x0 x1 x2 x3 x6 (ix3 g i j) := by
  unfold val_main_v40
  rw [Host.reduce_eq_fold_single FloatOps.minimumf _ _ reducesTo_S512x257x257_S512x257_d1 red1 h_S_]
  have hl : ∀ i : Fin 257, red1.lift (ix2 g j : S512x257.Idx) i = ix3 g i j := fun i =>
    funext fun c => Fin.ext (by match c with | ⟨0, _⟩ => rfl | ⟨1, _⟩ => rfl | ⟨2, _⟩ => rfl)
  show (Finset.univ : Finset (Fin 257)).fold min Cert.PadMin.I
      (fun i => val_main_v39 (F := Ideal) x0 x1 x2 x3 x6 (red1.lift (ix2 g j : S512x257.Idx) i)) = _
  exact congrArg (fun f => (Finset.univ : Finset (Fin 257)).fold min Cert.PadMin.I f)
    (funext fun i => congrArg _ (hl i))

/-- Row `i` of graph `g`: the minimum, from the pattern of +∞, over the 257 columns. -/
theorem v42_eq (x0 x1 : (⟨S131072x32, .f32⟩ : BufTy).Contents (Elt Ideal)) (x2 x3 : (⟨S1048576, .i32⟩ : BufTy).Contents (Elt Ideal)) (x6 : (⟨S1, .f32⟩ : BufTy).Contents (Elt Ideal))
    (g : Fin 512) (i : Fin 257) :
    val_main_v42 (F := Ideal) x0 x1 x2 x3 x6 (ix2 g i)
      = (Finset.univ : Finset (Fin 257)).fold min Cert.PadMin.I
          fun j => val_main_v39 (F := Ideal) x0 x1 x2 x3 x6 (ix3 g i j) := by
  unfold val_main_v42
  rw [Host.reduce_eq_fold_single FloatOps.minimumf _ _ reducesTo_S512x257x257_S512x257_d2 red2 h_S_]
  have hl : ∀ j : Fin 257, red2.lift (ix2 g i : S512x257.Idx) j = ix3 g i j := fun j =>
    funext fun c => Fin.ext (by match c with | ⟨0, _⟩ => rfl | ⟨1, _⟩ => rfl | ⟨2, _⟩ => rfl)
  show (Finset.univ : Finset (Fin 257)).fold min Cert.PadMin.I
      (fun j => val_main_v39 (F := Ideal) x0 x1 x2 x3 x6 (red2.lift (ix2 g i : S512x257.Idx) j)) = _
  exact congrArg (fun f => (Finset.univ : Finset (Fin 257)).fold min Cert.PadMin.I f)
    (funext fun j => congrArg _ (hl j))

theorem ref_apply (x0 x1 : (⟨S131072x32, .f32⟩ : BufTy).Contents (Elt Ideal)) (x2 x3 : (⟨S1048576, .i32⟩ : BufTy).Contents (Elt Ideal))
    (x6 : (⟨S1, .f32⟩ : BufTy).Contents (Elt Ideal)) (g : Fin 512) :
    val_main_v46 (F := Ideal) x0 x1 x2 x3 x6 (ix1 g)
      = Cert.PadMin.G x0 x1 (val_main_v5 (F := Ideal) x2) (val_main_v11 (F := Ideal) x3) (val_main_v12 (F := Ideal) x6 ix0) g := by
  have e41 : ∀ k : Fin 257, idx_main_v41 (ix1 g) k = ix2 g k := fun k =>
    funext fun a => Fin.ext (by match a with | ⟨0, _⟩ => rfl | ⟨1, _⟩ => rfl)
  have e43 : ∀ k : Fin 257, idx_main_v43 (ix1 g) k = ix2 g k := fun k =>
    funext fun a => Fin.ext (by match a with | ⟨0, _⟩ => rfl | ⟨1, _⟩ => rfl)
  rw [val_main_v46_apply, val_main_v41_apply, val_main_v43_apply, val_main_cst_10_apply, val_main_cst_12_apply]
  show (Ideal.ofBits .f32 0x00000000#32 + _) + (Ideal.ofBits .f32 0x00000000#32 + _) = _
  rw [Ideal.ofBits_zero_f32, zero_add, zero_add]
  simp only [e41, e43, v40_eq, v42_eq]
  unfold Cert.PadMin.G Cert.PadMin.graphVal
  exact Cert.PadMin.bordered_eq (n := 256) Cert.PadMin.I Cert.PadMin.Z _ _ _
    (fun i j => val_main_v39 (F := Ideal) x0 x1 x2 x3 x6 (ix3 g i j))
    (fun i j => by rw [v39_top, v33_left, v29_eq])
    (fun i => by rw [v39_top, v33_right, v31_eq])
    (fun j => by rw [v39_bot, v37_left, v35_eq])
    (by rw [v39_bot, v37_right])

end Cert.ReferenceIdeal.RefValue
end
-- ==== Proof.HostSide.lean ====
/-
  The host operations around the kernel call, as terms of the argument arrays.

  Before the call the program computes, for each of the two index arrays, the node costs `conn` (a scatter-add of
  ones into zeros at the given indices, plus one), scales them by the scalar argument and lays them out as
  [512, 256]; the two feature arrays are laid out as [512, 256, 32].  After the call the [16, 1, 32] result is laid
  out as [512] and divided by the converted sum of the two size arrays.
-/
import proofs.«109039_j3994319585319_2_alg».proof.Proof.Gen.KernelIdeal.Frame
import proofs.«109039_j3994319585319_2_alg».proof.Proof.GraphSpec
import Idealize.ShloMosaic.Lib.ValueIdx
import Idealize.ShloMosaic.Lib.Pipeline.Value
import Idealize.ShloMosaic.Lib.StableHlo.Run
import Idealize.ShloMosaic.PureOps.Ideal.Laws

set_option maxRecDepth 16384
noncomputable section
open Idealize.ShloMosaic Idealize.ShloMosaic.TcCoe Idealize.SL.Sem Idealize.ShloMosaic.ValueIdx
open Idealize.ShloMosaic.Pipeline (Dat)

namespace Cert.KernelIdeal.Arr
open Cert.KernelIdeal Cert.KernelIdeal.Gen

/-- A node-cost array: ones scattered-and-added into zeros at the indices `x`, plus one. -/
def conn (x : (⟨S1048576, .i32⟩ : BufTy).Contents (Elt Ideal)) : (⟨S131072, .f32⟩ : BufTy).Contents (Elt Ideal) :=
  addf (F := Ideal) (Host.scatterAdd (F := Ideal) scatter_S131072_S1048576x1_S1048576_n_0_0_1
      (broadcastInDim S131072 ![] bcast_S_S131072 (constant (F := Ideal) S_ .f32 0x00000000#32))
      (broadcastInDim S1048576x1 ![0] bcast_S1048576_S1048576x1_0 x)
      (broadcastInDim S1048576 ![] bcast_S_S1048576 (constant (F := Ideal) S_ .f32 0x3F800000#32)))
    (broadcastInDim S131072 ![] bcast_S_S131072 (constant (F := Ideal) S_ .f32 0x3F800000#32))

/-- The scalar argument as a rank-0 array. -/
def cscal (x6 : (⟨S1, .f32⟩ : BufTy).Contents (Elt Ideal)) : (⟨S_, .f32⟩ : BufTy).Contents (Elt Ideal) :=
  shapeCast _ x6 shapeCasts_S1_S_

/-- The node costs scaled by the scalar argument. -/
def scaled (x : (⟨S1048576, .i32⟩ : BufTy).Contents (Elt Ideal)) (x6 : (⟨S1, .f32⟩ : BufTy).Contents (Elt Ideal)) :
    (⟨S131072, .f32⟩ : BufTy).Contents (Elt Ideal) :=
  mulf (F := Ideal) (φ := .f32) (broadcastInDim S131072 ![] bcast_S_S131072 (cscal x6)) (conn x)

/-- The scaled node costs laid out graph by graph. -/
def costs (x : (⟨S1048576, .i32⟩ : BufTy).Contents (Elt Ideal)) (x6 : (⟨S1, .f32⟩ : BufTy).Contents (Elt Ideal)) :
    (⟨S512x256, .f32⟩ : BufTy).Contents (Elt Ideal) :=
  shapeCast _ (scaled x x6) shapeCasts_S131072_S512x256

variable (m : (ℓ : Loc nD τ sig) → Buf (Elt Ideal) ℓ) (ρ : Dev nD → PrngReg)

theorem V_v19 (c : Dev nD) : V m c main_v19 = shapeCast _ (m ((c : Thread nD τ).loc main_arg0)) shapeCasts_S131072x32_S512x256x32 := by
  show StableHlo.after hostOps0 (fun b => m (c, b)) (Proc.devRef .tc main_v19) = _
  after_results
  rfl

theorem V_v20 (c : Dev nD) : V m c main_v20 = shapeCast _ (m ((c : Thread nD τ).loc main_arg1)) shapeCasts_S131072x32_S512x256x32 := by
  show StableHlo.after hostOps0 (fun b => m (c, b)) (Proc.devRef .tc main_v20) = _
  after_results
  rfl

theorem V_v15 (c : Dev nD) : V m c main_v15 = costs (m ((c : Thread nD τ).loc main_arg2)) (m ((c : Thread nD τ).loc main_arg6)) := by
  show StableHlo.after hostOps0 (fun b => m (c, b)) (Proc.devRef .tc main_v15) = _
  after_results
  rfl

theorem V_v18 (c : Dev nD) : V m c main_v18 = costs (m ((c : Thread nD τ).loc main_arg3)) (m ((c : Thread nD τ).loc main_arg6)) := by
  show StableHlo.after hostOps0 (fun b => m (c, b)) (Proc.devRef .tc main_v18) = _
  after_results
  rfl

/-- The program's result after the call: the call's result array laid out as [512], divided by the converted sum
    of the two size arrays. -/
theorem tail (c : Dev nD) : Pipeline.afterTail₀ cfgs (dats m) 0 (V0 m) [hostOps1] c main_v25
      = Host.divf (F := Ideal) (shapeCast S512 ((dats m 0 c).arrAt 4 cfg0.N : S16x1x32.Idx → EReal) shapeCasts_S16x1x32_S512)
          (sitofp (F := Ideal) .f32 (addi (m ((c : Thread nD τ).loc main_arg4)) (m ((c : Thread nD τ).loc main_arg5)))) := by
  unfold Pipeline.afterTail₀
  show StableHlo.after hostOps1 _ (Proc.devRef .tc main_v25) = _
  after_results
  have e21 : Pipeline.withArrays (cfgs 0).spec c (V0 m c) (fun w => (dats m 0 c).arrAt w (cfgs 0).N) (Proc.devRef .tc main_v21)
      = (dats m 0 c).arrAt 4 cfg0.N :=
    Pipeline.withArrays_arr spec0 launch0.win.arr_inj c (V0 m c) (fun w => (dats m 0 c).arrAt w (cfgs 0).N) 4
  have e4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans (V_main_arg4 m c)
  have e5 : Pipeline.withArrays (cfgs 0).spec c (V0 m c) (fun w => (dats m 0 c).arrAt w (cfgs 0).N) (Proc.devRef .tc main_arg5)
      = m ((c : Thread nD τ).loc main_arg5) :=
    (Pipeline.withArrays_of_ne _ c (V0 m c) _ main_arg5 (by exact (by decide : ∀ w, Pipeline.arrRef spec0 w ≠ main_arg5))).trans (V_main_arg5 m c)
  rw [e21, e4, e5]
  rfl

end Cert.KernelIdeal.Arr
end
-- ==== Proof.Payload.lean ====
import proofs.«109039_j3994319585319_2_alg».proof.Proof.Gen.KernelIdeal.Skeleton
import proofs.«109039_j3994319585319_2_alg».proof.Proof.GraphSpec
import Idealize.ShloMosaic.Lib.ValueIdx
import Idealize.ShloMosaic.Lib.ValueLayout
import Idealize.ShloMosaic.Lib.Pipeline.Value
import Idealize.ShloMosaic.PureOps.Ideal.Laws
noncomputable section
open Idealize.ShloMosaic Idealize.ShloMosaic.ValueIdx
namespace Cert.KernelIdeal.Pay
open Cert.KernelIdeal Cert.KernelIdeal.Gen

/-!
  The kernel's arithmetic at one lane.

  The kernel's body works on a block of 32 graphs at once: two feature blocks of shape [32, 256, 32] and two blocks
  of node costs of shape [32, 256].  Read at lane `q` — graph `q` of the block — every operation of the body is the
  corresponding operation on that graph's own rows: the sums of squares and the block product are sums over the 32
  features, the two minima of the distance tensor are folds of `min` over the 256 rows or the 256 columns, and the
  two final sums are sums over the 256 nodes.  Put together, the value stored at lane `q` is `PadMin.graphVal` of
  graph `q`'s rows and costs.
-/

/-- The kernel's contraction record: batch axis 0, contracting axis 2 of both operands. -/
abbrev D := dot_S32x256x32_S32x256x32_S32x256x256_2_2_1_1_0_0

theorem lhs0 (i : S32x256x256.Idx) (c : D.contr.Idx) : (D.lhsIdx i c 0).val = (i 0).val := by
  unfold DotDims.lhsIdx
  rw [dif_pos (show (0 : Fin S32x256x32.rank) ∈ D.lhsBatch by decide)]
  rfl
theorem lhs1 (i : S32x256x256.Idx) (c : D.contr.Idx) : (D.lhsIdx i c 1).val = (i 1).val := by
  unfold DotDims.lhsIdx
  rw [dif_neg (show ¬(1 : Fin S32x256x32.rank) ∈ D.lhsBatch by decide),
    dif_pos (show (1 : Fin S32x256x32.rank) ∈ D.lhsNonContracting by decide)]
  rfl
theorem lhs2 (i : S32x256x256.Idx) (c : D.contr.Idx) : (D.lhsIdx i c 2).val = (c ⟨0, by decide⟩).val :=
  D.lhsIdx_val_of_single rfl i c
theorem rhs0 (i : S32x256x256.Idx) (c : D.contr.Idx) : (D.rhsIdx i c 0).val = (i 0).val := by
  unfold DotDims.rhsIdx
  rw [dif_pos (show (0 : Fin S32x256x32.rank) ∈ D.rhsBatch by decide)]
  rfl
theorem rhs1 (i : S32x256x256.Idx) (c : D.contr.Idx) : (D.rhsIdx i c 1).val = (i 2).val := by
  unfold DotDims.rhsIdx
  rw [dif_neg (show ¬(1 : Fin S32x256x32.rank) ∈ D.rhsBatch by decide),
    dif_pos (show (1 : Fin S32x256x32.rank) ∈ D.rhsNonContracting by decide)]
  rfl
theorem rhs2 (i : S32x256x256.Idx) (c : D.contr.Idx) : (D.rhsIdx i c 2).val = (c ⟨0, by decide⟩).val :=
  D.rhsIdx_val_of_single rfl i c

/-- The block product into a zero accumulator, read at graph `q`, row `i`, column `j`: the inner product of
    row `i` of the first operand and row `j` of the second. -/
theorem mm_apply {φ₁ φ₂ : FTy} (y0 : FVec Ideal S32x256x32 φ₁) (y1 : FVec Ideal S32x256x32 φ₂) (q : Fin 32) (i j : Fin 256) :
    matmul (F := Ideal) D none y0 y1 (constant (F := Ideal) S32x256x256 .f32 0x00000000#32) (ix3 q i j)
      = ∑ k : Fin 32, y0 (ix3 q i k) * y1 (ix3 q j k) := by
  simp only [matmul]
  rw [Ideal.matmul_constant_zero_apply, ← Equiv.sum_comp (contrEquiv1 D 32 rfl rfl).symm]
  refine Finset.sum_congr rfl fun k _ => ?_
  have hk := contrEquiv1_symm_val D 32 rfl rfl k
  have el : D.lhsIdx (ix3 q i j) ((contrEquiv1 D 32 rfl rfl).symm k) = ix3 q i k := funext fun a => Fin.ext (by
    match a with
    | ⟨0, _⟩ => exact lhs0 _ _
    | ⟨1, _⟩ => exact lhs1 _ _
    | ⟨2, _⟩ => exact (lhs2 _ _).trans hk)
  have er : D.rhsIdx (ix3 q i j) ((contrEquiv1 D 32 rfl rfl).symm k) = ix3 q j k := funext fun a => Fin.ext (by
    match a with
    | ⟨0, _⟩ => exact rhs0 _ _
    | ⟨1, _⟩ => exact rhs1 _ _
    | ⟨2, _⟩ => exact (rhs2 _ _).trans hk)
  rw [el, er]

/-- The sum of squares along the feature axis, read at graph `q`, row `i`. -/
theorem sq_apply (y : FVec Ideal S32x256x32 .f32) (q : Fin 32) (i : Fin 256) :
    multiReduction (F := Ideal) .add [2] S32x256 (mulf y y) 0x00000000#32 reduces_S32x256x32_S32x256 (.inl rfl) rfl (ix2 q i)
      = ∑ k : Fin 32, y (ix3 q i k) * y (ix3 q i k) := by
  refine (Ideal.multiReduction_add_single _ _ _ _ _ _).trans ?_
  show ∑ k : Fin 32, _ = _
  refine Finset.sum_congr rfl fun k _ => ?_
  have e : reduces_S32x256x32_S32x256.lift (ix2 q i) k = ix3 q i k := funext fun a => Fin.ext (by
    match a with
    | ⟨0, _⟩ => rfl
    | ⟨1, _⟩ => rfl
    | ⟨2, _⟩ => rfl)
  rw [e, mulf_apply]

/-- A [32,256] array cast to [32,256,1] and broadcast along the last axis, read at (q, i, j): the array at (q, i). -/
theorem bc_row (v : FVec Ideal S32x256 .f32) (q : Fin 32) (i j : Fin 256) :
    broadcastTo S32x256x256 (shapeCast S32x256x1 v shapeCasts_S32x256_S32x256x1) broadcasts_S32x256x1_S32x256x256 (ix3 q i j)
      = v (ix2 q i) := by
  refine (broadcastTo_apply _ _ (ix3 q i j) (ix3 q i (0 : Fin 1)) (fun a => ?_)).trans ?_
  · match a with
    | ⟨0, _⟩ => rfl
    | ⟨1, _⟩ => rfl
    | ⟨2, _⟩ => rfl
  · refine shapeCast_apply _ _ _ (ix2 q i) ?_
    rw [Shape.rowMajor_val_two, Shape.rowMajor_val_three]
    show q.val * 256 + i.val = (q.val * 256 + i.val) * 1 + 0
    omega

/-- A [32,256] array cast to [32,1,256] and broadcast along the middle axis, read at (q, i, j): the array at (q, j). -/
theorem bc_col (v : FVec Ideal S32x256 .f32) (q : Fin 32) (i j : Fin 256) :
    broadcastTo S32x256x256 (shapeCast S32x1x256 v shapeCasts_S32x256_S32x1x256) broadcasts_S32x1x256_S32x256x256 (ix3 q i j)
      = v (ix2 q j) := by
  refine (broadcastTo_apply _ _ (ix3 q i j) (ix3 q (0 : Fin 1) j) (fun a => ?_)).trans ?_
  · match a with
    | ⟨0, _⟩ => rfl
    | ⟨1, _⟩ => rfl
    | ⟨2, _⟩ => rfl
  · refine shapeCast_apply _ _ _ (ix2 q j) ?_
    rw [Shape.rowMajor_val_two, Shape.rowMajor_val_three]
    show q.val * 256 + j.val = (q.val * 1 + 0) * 256 + j.val
    omega

/-- The squared-distance tensor read at graph `q`, row `i`, column `j`. -/
theorem dist_apply (x0 x1 : Vec Ideal S32x256x32 .f32) (q : Fin 32) (i j : Fin 256) :
    k0_pay4 (F := Ideal) x0 x1 (ix3 q i j)
      = Cert.PadMin.dist Cert.PadMin.two (fun i k => x0 (ix3 q i k)) (fun j k => x1 (ix3 q j k)) i j := by
  have h0 : shapeCast S32x256x32 x0 shapeCasts_S32x256x32_S32x256x32 = x0 := shapeCast_self _ _
  have h1 : shapeCast S32x256x32 x1 shapeCasts_S32x256x32_S32x256x32 = x1 := shapeCast_self _ _
  unfold k0_pay4
  simp only [h0, h1]
  rw [subf_apply, addf_apply, mulf_apply, broadcast_apply, bc_row, bc_col, sq_apply, sq_apply, mm_apply]
  rfl

/-- A minimum along one axis: the fold of `min` from the accumulator's value over that axis's coordinates. -/
theorem min_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The column minima of the distance tensor: at graph `q`, column `j`, the minimum over the rows `i`. -/
theorem colmin_apply (x0 x1 : Vec Ideal S32x256x32 .f32) (q : Fin 32) (j : Fin 256) :
    multiReduction (F := Ideal) .minimumf [1] S32x256 (k0_pay4 x0 x1) 0x7F800000#32 reduces_S32x256x256_S32x256_2 (.inl rfl) rfl (ix2 q j)
      = (Finset.univ : Finset (Fin 256)).fold min Cert.PadMin.I
          (fun i => Cert.PadMin.dist Cert.PadMin.two (fun i k => x0 (ix3 q i k)) (fun j k => x1 (ix3 q j k)) i j) := by
  refine (min_single _ _ _ _ _ _).trans ?_
  show (Finset.univ : Finset (Fin 256)).fold min Cert.PadMin.I _ = _
  refine Finset.fold_congr fun i _ => ?_
  have e : reduces_S32x256x256_S32x256_2.lift (ix2 q j) i = ix3 q i j := funext fun a => Fin.ext (by
    match a with
    | ⟨0, _⟩ => rfl
    | ⟨1, _⟩ => rfl
    | ⟨2, _⟩ => rfl)
  show k0_pay4 (F := Ideal) x0 x1 (reduces_S32x256x256_S32x256_2.lift (ix2 q j) i) = _
  rw [e, dist_apply]

/-- The row minima of the distance tensor: at graph `q`, row `i`, the minimum over the columns `j`. -/
theorem rowmin_apply (x0 x1 : Vec Ideal S32x256x32 .f32) (q : Fin 32) (i : Fin 256) :
    multiReduction (F := Ideal) .minimumf [2] S32x256 (k0_pay4 x0 x1) 0x7F800000#32 reduces_S32x256x256_S32x256 (.inl rfl) rfl (ix2 q i)
      = (Finset.univ : Finset (Fin 256)).fold min Cert.PadMin.I
          (fun j => Cert.PadMin.dist Cert.PadMin.two (fun i k => x0 (ix3 q i k)) (fun j k => x1 (ix3 q j k)) i j) := by
  refine (min_single _ _ _ _ _ _).trans ?_
  show (Finset.univ : Finset (Fin 256)).fold min Cert.PadMin.I _ = _
  refine Finset.fold_congr fun j _ => ?_
  have e : reduces_S32x256x256_S32x256.lift (ix2 q i) j = ix3 q i j := funext fun a => Fin.ext (by
    match a with
    | ⟨0, _⟩ => rfl
    | ⟨1, _⟩ => rfl
    | ⟨2, _⟩ => rfl)
  show k0_pay4 (F := Ideal) x0 x1 (reduces_S32x256x256_S32x256.lift (ix2 q i) j) = _
  rw [e, dist_apply]

/-- The minimum of a graph's node costs. -/
theorem cmin_apply (c : FVec Ideal S32x256 .f32) (q : Fin 32) :
    multiReduction (F := Ideal) .minimumf [1] S32 c 0x7F800000#32 reduces_S32x256_S32 (.inl rfl) rfl (ix1 q)
      = (Finset.univ : Finset (Fin 256)).fold min Cert.PadMin.I (fun i => c (ix2 q i)) := by
  refine (min_single _ _ _ _ _ _).trans ?_
  show (Finset.univ : Finset (Fin 256)).fold min Cert.PadMin.I _ = _
  refine Finset.fold_congr fun i _ => ?_
  have e : reduces_S32x256_S32.lift (ix1 q) i = ix2 q i := funext fun a => Fin.ext (by
    match a with
    | ⟨0, _⟩ => rfl
    | ⟨1, _⟩ => rfl)
  show c (reduces_S32x256_S32.lift (ix1 q) i) = _
  rw [e]

/-- A sum along the node axis of a [32,256] array, read at graph `q`. -/
theorem csum_apply (c : FVec Ideal S32x256 .f32) (q : Fin 32) :
    multiReduction (F := Ideal) .add [1] S32 c 0x00000000#32 reduces_S32x256_S32 (.inl rfl) rfl (ix1 q)
      = ∑ i : Fin 256, c (ix2 q i) := by
  refine (Ideal.multiReduction_add_single _ _ _ _ _ _).trans ?_
  show ∑ i : Fin 256, _ = _
  refine Finset.sum_congr rfl fun i _ => ?_
  have e : reduces_S32x256_S32.lift (ix1 q) i = ix2 q i := funext fun a => Fin.ext (by
    match a with
    | ⟨0, _⟩ => rfl
    | ⟨1, _⟩ => rfl)
  rw [e]

/-- The first half: the column minima against the second cost array, summed, plus the first cost array's minimum
    against the corner. -/
theorem pay5_apply (x0 x1 : Vec Ideal S32x256x32 .f32) (x2 x3 : Vec Ideal S32x256 .f32) (q : Fin 32) :
    k0_pay5 (F := Ideal) x0 x1 x2 x3 (ix1 q)
      = (∑ j : Fin 256, min ((Finset.univ : Finset (Fin 256)).fold min Cert.PadMin.I
            (fun i => Cert.PadMin.dist Cert.PadMin.two (fun i k => x0 (ix3 q i k)) (fun j k => x1 (ix3 q j k)) i j)) (x3 (ix2 q j)))
        + min ((Finset.univ : Finset (Fin 256)).fold min Cert.PadMin.I (fun i => x2 (ix2 q i))) Cert.PadMin.Z := by
  have h2 : k0_pay2 (F := Ideal) x2 = x2 := shapeCast_self _ _
  have h3 : k0_pay3 (F := Ideal) x3 = x3 := shapeCast_self _ _
  unfold k0_pay5
  simp only [h2, h3]
  rw [addf_apply, minimumf_apply, broadcast_apply, csum_apply, cmin_apply]
  refine congrArg₂ (· + ·) (Finset.sum_congr rfl fun j _ => ?_) rfl
  rw [minimumf_apply, colmin_apply]

/-- The second half: the row minima against the first cost array, summed, plus the second cost array's minimum
    against the corner. -/
theorem pay6_apply (x0 x1 : Vec Ideal S32x256x32 .f32) (x2 x3 : Vec Ideal S32x256 .f32) (q : Fin 32) :
    k0_pay6 (F := Ideal) x0 x1 x2 x3 (ix1 q)
      = (∑ i : Fin 256, min ((Finset.univ : Finset (Fin 256)).fold min Cert.PadMin.I
            (fun j => Cert.PadMin.dist Cert.PadMin.two (fun i k => x0 (ix3 q i k)) (fun j k => x1 (ix3 q j k)) i j)) (x2 (ix2 q i)))
        + min ((Finset.univ : Finset (Fin 256)).fold min Cert.PadMin.I (fun j => x3 (ix2 q j))) Cert.PadMin.Z := by
  have h2 : k0_pay2 (F := Ideal) x2 = x2 := shapeCast_self _ _
  have h3 : k0_pay3 (F := Ideal) x3 = x3 := shapeCast_self _ _
  unfold k0_pay6
  simp only [h2, h3]
  rw [addf_apply, minimumf_apply, broadcast_apply, csum_apply, cmin_apply]
  refine congrArg₂ (· + ·) (Finset.sum_congr rfl fun i _ => ?_) rfl
  rw [minimumf_apply, rowmin_apply]

/-- The value the body stores at lane `q`: graph `q`'s value in the kernel's arrangement. -/
theorem pay_apply (x0 x1 : Vec Ideal S32x256x32 .f32) (x2 x3 : Vec Ideal S32x256 .f32) (q : Fin 32) :
    k0_pay1 (F := Ideal) (k0_pay5 x0 x1 x2 x3) (k0_pay6 x0 x1 x2 x3) (ix3 (0 : Fin 1) (0 : Fin 1) q)
      = Cert.PadMin.graphVal Cert.PadMin.I Cert.PadMin.Z Cert.PadMin.two
          (fun i k => x0 (ix3 q i k)) (fun j k => x1 (ix3 q j k)) (fun i => x2 (ix2 q i)) (fun j => x3 (ix2 q j)) := by
  unfold k0_pay1
  refine (shapeCast_apply _ _ (ix3 (0 : Fin 1) (0 : Fin 1) q) (ix1 q) ?_).trans ?_
  · rw [Shape.rowMajor_val_one, Shape.rowMajor_val_three]
    show q.val = (0 * 1 + 0) * 32 + q.val
    omega
  · rw [addf_apply, pay5_apply, pay6_apply]
    rfl

end Cert.KernelIdeal.Pay
end
-- ==== Proof.Blocks.lean ====
/-
  From the kernel call's blocks to its result array.

  The call runs on a grid of 16 points; point `t` reads graphs `32 t … 32 t + 31`: block `t` (along the first
  axis) of the two [512, 256, 32] feature arrays and of the two [512, 256] cost arrays, and writes block `t` of
  the [16, 1, 32] result.  Lane `q` of what point `t` writes is graph `32 t + q`'s value; the 16 blocks tile the
  result array, so after the call entry (t, 0, q) of the result holds graph `32 t + q`'s value, and the result
  laid out as [512] holds graph `g`'s value at `g`.
-/
import proofs.«109039_j3994319585319_2_alg».proof.Proof.Gen.KernelIdeal.Frame
import proofs.«109039_j3994319585319_2_alg».proof.Proof.GraphSpec
import proofs.«109039_j3994319585319_2_alg».proof.Proof.HostSide
import proofs.«109039_j3994319585319_2_alg».proof.Proof.Payload
import Idealize.ShloMosaic.Lib.ValueIdx
import Idealize.ShloMosaic.Lib.Pipeline.Value
import Idealize.ShloMosaic.Lib.StableHlo.Run
import Idealize.ShloMosaic.PureOps.Ideal.Laws

set_option maxRecDepth 16384
noncomputable section
open Idealize.ShloMosaic Idealize.ShloMosaic.TcCoe Idealize.SL.Sem Idealize.ShloMosaic.ValueIdx
open Idealize.ShloMosaic.Pipeline (Dat)

namespace Cert.KernelIdeal.Arr
open Cert.KernelIdeal Cert.KernelIdeal.Gen

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The block of every window at point `t` is block `t` along the first axis, block 0 along the others. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The graph that lane `q` of point `t` works on. -/
def graphAt (t : Fin cfg0.N) (q : Fin 32) : Fin 512 :=
  ⟨t.val * 32 + q.val, by have := t.isLt; have h : cfg0.N = 16 := N_0; have := q.isLt; omega⟩

/-- The scaled costs at node `i` of graph `g`. -/
theorem costs_apply (x : (⟨S1048576, .i32⟩ : BufTy).Contents (Elt Ideal)) (x6 : (⟨S1, .f32⟩ : BufTy).Contents (Elt Ideal))
    (j : S512x256.Idx) (g : Fin 512) (i : Fin 256) (h0 : (j 0).val = g.val) (h1 : (j 1).val = i.val) :
    costs x x6 j = cscal x6 ix0 * conn x (ix1 (Cert.PadMin.row g i)) := by
  unfold costs
  refine (shapeCast_apply _ _ j (ix1 (Cert.PadMin.row g i)) ?_).trans ?_
  · rw [Shape.rowMajor_val_one, Shape.rowMajor_val_two]
    show g.val * 256 + i.val = (j 0).val * 256 + (j 1).val
    rw [h0, h1]
  · unfold scaled
    rw [mulf_apply]
    refine congrArg (· * _) ?_
    exact broadcastInDim_apply _ bcast_S_S131072 (cscal x6) _ ix0 (fun a => a.elim0)

/-- Feature window 0's block at point `t`: rows of the first feature array. -/
theorem iblk0_apply (c : Dev nD) (t : Fin cfg0.N) (x : S32x256x32.Idx) (q : Fin 32) (i : Fin 256) (k : Fin 32)
    (h0 : (x 0).val = q.val) (h1 : (x 1).val = i.val) (h2 : (x 2).val = k.val) :
    (iblk m c 0 t : S32x256x32.Idx → EReal) x
      = (m ((c : Thread nD τ).loc main_arg0) : S131072x32.Idx → EReal) (ix2 (Cert.PadMin.row (graphAt t q) i) k) := by
  obtain ⟨e0, e1, e2, -⟩ := idx_facts t
  unfold iblk
  rw [View.read_apply]
  show V m c main_v19 _ = _
  rw [V_v19]
  refine shapeCast_apply _ _ _ (ix2 (Cert.PadMin.row (graphAt t q) i) k) ?_
  rw [Shape.rowMajor_val_two, Shape.rowMajor_val_three]
  show ((t.val * 32 + q.val) * 256 + i.val) * 32 + k.val
    = ((win0_0.index t (0 : Fin 3) * 32 + 1 * (x 0).val) * 256 + (win0_0.index t (1 : Fin 3) * 256 + 1 * (x 1).val)) * 32
        + (win0_0.index t (2 : Fin 3) * 32 + 1 * (x 2).val)
  rw [e0, e1, e2, h0, h1, h2]; omega

/-- Feature window 1's block at point `t`: rows of the second feature array. -/
theorem iblk1_apply (c : Dev nD) (t : Fin cfg0.N) (x : S32x256x32.Idx) (q : Fin 32) (i : Fin 256) (k : Fin 32)
    (h0 : (x 0).val = q.val) (h1 : (x 1).val = i.val) (h2 : (x 2).val = k.val) :
    (iblk m c 1 t : S32x256x32.Idx → EReal) x
      = (m ((c : Thread nD τ).loc main_arg1) : S131072x32.Idx → EReal) (ix2 (Cert.PadMin.row (graphAt t q) i) k) := by
  obtain ⟨-, -, -, e0, e1, e2, -⟩ := idx_facts t
  unfold iblk
  rw [View.read_apply]
  show V m c main_v20 _ = _
  rw [V_v20]
  refine shapeCast_apply _ _ _ (ix2 (Cert.PadMin.row (graphAt t q) i) k) ?_
  rw [Shape.rowMajor_val_two, Shape.rowMajor_val_three]
  show ((t.val * 32 + q.val) * 256 + i.val) * 32 + k.val
    = ((win0_1.index t (0 : Fin 3) * 32 + 1 * (x 0).val) * 256 + (win0_1.index t (1 : Fin 3) * 256 + 1 * (x 1).val)) * 32
        + (win0_1.index t (2 : Fin 3) * 32 + 1 * (x 2).val)
  rw [e0, e1, e2, h0, h1, h2]; omega

/-- Cost window 2's block at point `t`: the first family's scaled costs. -/
theorem iblk2_apply (c : Dev nD) (t : Fin cfg0.N) (x : S32x256.Idx) (q : Fin 32) (i : Fin 256)
    (h0 : (x 0).val = q.val) (h1 : (x 1).val = i.val) :
    (iblk m c 2 t : S32x256.Idx → EReal) x
      = cscal (m ((c : Thread nD τ).loc main_arg6)) ix0
          * conn (m ((c : Thread nD τ).loc main_arg2)) (ix1 (Cert.PadMin.row (graphAt t q) i)) := by
  obtain ⟨-, -, -, -, -, -, e0, e1, -⟩ := idx_facts t
  unfold iblk
  rw [View.read_apply]
  show V m c main_v15 _ = _
  rw [V_v15]
  refine costs_apply _ _ _ (graphAt t q) i ?_ ?_
  · show win0_2.index t (0 : Fin 2) * 32 + 1 * (x 0).val = t.val * 32 + q.val
    rw [e0, h0]; omega
  · show win0_2.index t (1 : Fin 2) * 256 + 1 * (x 1).val = i.val
    rw [e1, h1]; omega

/-- Cost window 3's block at point `t`: the second family's scaled costs. -/
theorem iblk3_apply (c : Dev nD) (t : Fin cfg0.N) (x : S32x256.Idx) (q : Fin 32) (i : Fin 256)
    (h0 : (x 0).val = q.val) (h1 : (x 1).val = i.val) :
    (iblk m c 3 t : S32x256.Idx → EReal) x
      = cscal (m ((c : Thread nD τ).loc main_arg6)) ix0
          * conn (m ((c : Thread nD τ).loc main_arg3)) (ix1 (Cert.PadMin.row (graphAt t q) i)) := by
  obtain ⟨-, -, -, -, -, -, -, -, e0, e1, -⟩ := idx_facts t
  unfold iblk
  rw [View.read_apply]
  show V m c main_v18 _ = _
  rw [V_v18]
  refine costs_apply _ _ _ (graphAt t q) i ?_ ?_
  · show win0_3.index t (0 : Fin 2) * 32 + 1 * (x 0).val = t.val * 32 + q.val
    rw [e0, h0]; omega
  · show win0_3.index t (1 : Fin 2) * 256 + 1 * (x 1).val = i.val
    rw [e1, h1]; omega

/-- Graph `g`'s value from the launch contents of the argument arrays. -/
def valueOf (c : Dev nD) (g : Fin 512) : EReal :=
  Cert.PadMin.G (m ((c : Thread nD τ).loc main_arg0)) (m ((c : Thread nD τ).loc main_arg1))
    (conn (m ((c : Thread nD τ).loc main_arg2))) (conn (m ((c : Thread nD τ).loc main_arg3)))
    (cscal (m ((c : Thread nD τ).loc main_arg6)) ix0) g

/-- The call's result array: entry (t, 0, q) is graph `32 t + q`'s value. -/
def resultArr (c : Dev nD) : S16x1x32.Idx → EReal := fun y =>
  valueOf m c ⟨(y 0).val * 32 + (y 2).val, by have h0 : (y 0).val < 16 := (y 0).isLt; have h2 : (y 2).val < 32 := (y 2).isLt; omega⟩

/-- What the body leaves at lane `q` of point `t` is graph `32 t + q`'s value. -/
theorem out_apply (c : Dev nD) (t : Fin cfg0.N) (q : Fin 32) :
    k0_pay1 (F := Ideal) (k0_pay5 (iblk m c 0 t) (iblk m c 1 t) (iblk m c 2 t) (iblk m c 3 t))
        (k0_pay6 (iblk m c 0 t) (iblk m c 1 t) (iblk m c 2 t) (iblk m c 3 t)) (ix3 (0 : Fin 1) (0 : Fin 1) q)
      = valueOf m c (graphAt t q) := by
  refine (Cert.KernelIdeal.Pay.pay_apply (iblk m c 0 t) (iblk m c 1 t) (iblk m c 2 t) (iblk m c 3 t) q).trans ?_
  unfold valueOf Cert.PadMin.G
  have h0 : (fun (i : Fin 256) (k : Fin 32) => (iblk m c 0 t : S32x256x32.Idx → EReal) (ix3 q i k))
      = fun i k => (m ((c : Thread nD τ).loc main_arg0) : S131072x32.Idx → EReal) (ix2 (Cert.PadMin.row (graphAt t q) i) k) :=
    funext fun i => funext fun k => iblk0_apply m c t (ix3 q i k) q i k rfl rfl rfl
  have h1 : (fun (j : Fin 256) (k : Fin 32) => (iblk m c 1 t : S32x256x32.Idx → EReal) (ix3 q j k))
      = fun j k => (m ((c : Thread nD τ).loc main_arg1) : S131072x32.Idx → EReal) (ix2 (Cert.PadMin.row (graphAt t q) j) k) :=
    funext fun j => funext fun k => iblk1_apply m c t (ix3 q j k) q j k rfl rfl rfl
  have h2 : (fun (i : Fin 256) => (iblk m c 2 t : S32x256.Idx → EReal) (ix2 q i))
      = fun i => cscal (m ((c : Thread nD τ).loc main_arg6)) ix0
          * conn (m ((c : Thread nD τ).loc main_arg2)) (ix1 (Cert.PadMin.row (graphAt t q) i)) :=
    funext fun i => iblk2_apply m c t (ix2 q i) q i rfl rfl
  have h3 : (fun (j : Fin 256) => (iblk m c 3 t : S32x256.Idx → EReal) (ix2 q j))
      = fun j => cscal (m ((c : Thread nD τ).loc main_arg6)) ix0
          * conn (m ((c : Thread nD τ).loc main_arg3)) (ix1 (Cert.PadMin.row (graphAt t q) j)) :=
    funext fun j => iblk3_apply m c t (ix2 q j) q j rfl rfl
  exact congr (congr (congr (congrArg _ h0) h1) h2) h3

/-- Entry `y` of what the body leaves at point `t` is the result array's entry under block `t`. -/
theorem flushed_apply (c : Dev nD) (t : Fin cfg0.N) (y : S1x1x32.Idx) :
    k0_pay1 (F := Ideal) (k0_pay5 (iblk m c 0 t) (iblk m c 1 t) (iblk m c 2 t) (iblk m c 3 t))
        (k0_pay6 (iblk m c 0 t) (iblk m c 1 t) (iblk m c 2 t) (iblk m c 3 t)) y
      = resultArr m c (((cfg0.win 4).blk t).view.emb y) := by
  obtain ⟨q, rfl⟩ : ∃ q : Fin 32, y = ix3 (0 : Fin 1) (0 : Fin 1) q := ⟨y 2, funext fun a => by
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl⟩
  obtain ⟨-, -, -, -, -, -, -, -, -, -, e0, e1, e2⟩ := idx_facts t
  rw [out_apply]
  unfold resultArr
  refine congrArg (valueOf m c) (Fin.ext ?_)
  show t.val * 32 + q.val = (win0_4.index t (0 : Fin 3) * 1 + 1 * 0) * 32 + (win0_4.index t (2 : Fin 3) * 32 + 1 * q.val)
  rw [e0, e2]; omega

/-- What point `t` writes back is block `t` of the result array. -/
theorem flushed_eq (c : Dev nD) (t : Fin cfg0.N) :
    (dats m 0 c).flushed 4 t = ((cfg0.win 4).blk t).view.read (Elt Ideal) (resultArr m c) := by
  show (cfg0.win 4).cut (grid0.coords t) ((dats m 0 c).after 4 t) = _
  rw [after0_4]
  unfold out0_4
  rw [View.canon_unit_zero hz3]
  simp only [View.ld_unit_zero (S := S32x256x32) hz3, View.ld_unit_zero (S := S32x256) hz2]
  funext y
  exact flushed_apply m c t y

/-- After the call the result array holds every graph's value: the 16 blocks tile the array (entry `i` lies in
    block `i 0`), and each block is what its point wrote back. -/
theorem final (c : Dev nD) : (dats m 0 c).arrAt 4 cfg0.N = resultArr m c :=
  (dats m 0 c).arrAt_eq_of_cover 4 (resultArr m c) (fun t _ => flushed_eq m c t) fun i => by
    have h0 : (i 0).val < 16 := (i 0).isLt
    have h1 : (i 1).val < 1 := (i 1).isLt
    have h2 : (i 2).val < 32 := (i 2).isLt
    have ht : (i 0).val < cfg0.N := by show (i 0).val < grid0.N; rw [N_0]; exact h0
    obtain ⟨-, -, -, -, -, -, -, -, -, -, e0, e1, e2⟩ := idx_facts ⟨(i 0).val, ht⟩
    have e0 : win0_4.index ⟨(i 0).val, ht⟩ (0 : Fin 3) = (i 0).val := e0
    refine ⟨⟨(i 0).val, ht⟩, flush0_4 _, ?_⟩
    show i ∈ ((View.whole main_v21).slice (win0_4.rect ⟨(i 0).val, ht⟩)).set
    rw [View.set_slice_whole, Rect.mem_set_unit]
    intro a
    match a with
    | ⟨0, _⟩ =>
      show win0_4.index ⟨(i 0).val, ht⟩ (0 : Fin 3) * 1 ≤ (i 0).val ∧ (i 0).val < win0_4.index ⟨(i 0).val, ht⟩ (0 : Fin 3) * 1 + 1
      rw [e0]; omega
    | ⟨1, _⟩ =>
      show win0_4.index ⟨(i 0).val, ht⟩ (1 : Fin 3) * 1 ≤ (i 1).val ∧ (i 1).val < win0_4.index ⟨(i 0).val, ht⟩ (1 : Fin 3) * 1 + 1
      rw [e1]; omega
    | ⟨2, _⟩ =>
      show win0_4.index ⟨(i 0).val, ht⟩ (2 : Fin 3) * 32 ≤ (i 2).val ∧ (i 2).val < win0_4.index ⟨(i 0).val, ht⟩ (2 : Fin 3) * 32 + 32
      rw [e2]; omega

/-- Laid out as [512], the result array holds graph `g`'s value at `g`. -/
theorem result_flat (c : Dev nD) :
    shapeCast S512 (resultArr m c) shapeCasts_S16x1x32_S512 = fun y : S512.Idx => valueOf m c (y 0) := by
  funext y
  have hy : (y 0).val < 512 := (y 0).isLt
  refine (shapeCast_apply _ _ y (ix3 (⟨(y 0).val / 32, by omega⟩ : Fin 16) (0 : Fin 1) (⟨(y 0).val % 32, by omega⟩ : Fin 32)) ?_).trans ?_
  · rw [Shape.rowMajor_val_one, Shape.rowMajor_val_three]
    show ((y 0).val / 32 * 1 + 0) * 32 + (y 0).val % 32 = (y 0).val
    omega
  · unfold resultArr
    refine congrArg (valueOf m c) (Fin.ext ?_)
    show (y 0).val / 32 * 32 + (y 0).val % 32 = (y 0).val
    omega

/-- The kernel program's run, read: the result is every graph's value divided by the converted sum of the two size
    arrays, and the argument arrays end unchanged. -/
theorem run : θ_run defs (onTc (τ := τ) (main (F := Ideal))) ⟨m, fun _ => 0, ρ⟩ fun r => ∀ c : Dev nD,
      r.2.mem ((c.tc : Thread nD τ).loc main_v25)
        = Host.divf (F := Ideal) (fun y : S512.Idx => valueOf m c (y 0))
            (sitofp (F := Ideal) .f32 (addi (m ((c.tc : Thread nD τ).loc main_arg4)) (m ((c.tc : Thread nD τ).loc main_arg5))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨
      ((h c).2 main_v25 (Pipeline.mem_restRefs_of main_v25 (by decide) (by decide))).trans
        ((tail m c).trans (by rw [final, result_flat])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Arr
end
-- ==== Proof.lean ====
/-
  The kernel computes, for each of 512 graphs, a soft Hausdorff-style distance between two sets of 256 feature
  rows: the 256 × 256 matrix of squared distances is bordered by a column and a row of insertion/deletion costs
  (a scalar times each node's degree plus one) and a zero corner, the minima of all 257 columns and of all 257 rows
  are summed, and the total is divided by the sum of the two graph sizes.

  The reference builds the bordered 257 × 257 matrix and reduces it.  The kernel never builds it: it reduces the
  256 × 256 matrix and folds the border in by hand — `min (min_i dist i j) (c2 j)` for the bordered column `j`,
  `min (min_i c1 i) 0` for the extra column, and likewise for the rows.  Both compute the node costs by the same
  host scatter-add, so those enter both sides as the same term.  On the extended reals the two arrangements are
  equal because `min` and `+` are commutative and associative (`PadMin.bordered_eq`); no entry needs to be finite,
  so the precondition is not used.

  The modules: `PadMin` (the law), `GraphSpec` (one graph's value from the argument arrays), `RefRead` (the
  reference read at a graph), `Payload` (the kernel body's arithmetic read at a lane), `HostSide` (the host
  operations around the call), `Blocks` (from the call's blocks to its result array, and the run read).
-/
import proofs.«109039_j3994319585319_2_alg».proof.Defs
import proofs.«109039_j3994319585319_2_alg».proof.Proof.Gen.Kernel
import proofs.«109039_j3994319585319_2_alg».proof.Proof.Gen.Kernel.Skeleton
import proofs.«109039_j3994319585319_2_alg».proof.Proof.Gen.Kernel.Launch
import proofs.«109039_j3994319585319_2_alg».proof.Proof.Gen.Kernel.Points
import proofs.«109039_j3994319585319_2_alg».proof.Proof.Gen.Kernel.Frame
import proofs.«109039_j3994319585319_2_alg».proof.Proof.Gen.KernelIdeal
import proofs.«109039_j3994319585319_2_alg».proof.Proof.Gen.KernelIdeal.Skeleton
import proofs.«109039_j3994319585319_2_alg».proof.Proof.Gen.KernelIdeal.Launch
import proofs.«109039_j3994319585319_2_alg».proof.Proof.Gen.KernelIdeal.Points
import proofs.«109039_j3994319585319_2_alg».proof.Proof.Gen.KernelIdeal.Frame
import proofs.«109039_j3994319585319_2_alg».proof.Proof.Gen.ReferenceIdeal
import proofs.«109039_j3994319585319_2_alg».proof.Proof.Gen.ReferenceIdeal.Run
import proofs.«109039_j3994319585319_2_alg».proof.Proof.Gen.ReferenceIdeal.Read
import proofs.«109039_j3994319585319_2_alg».proof.Proof.Gen.Pre_finite_inputs
import proofs.«109039_j3994319585319_2_alg».proof.Proof.RefRead
import proofs.«109039_j3994319585319_2_alg».proof.Proof.Blocks
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference has no kernel call: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs compute the node costs, and read the scalar, by the same host operations. -/
theorem conn_eq5 (x : (⟨Cert.ReferenceIdeal.S1048576, .i32⟩ : BufTy).Contents (Elt Ideal)) :
    Cert.KernelIdeal.Arr.conn x = Cert.ReferenceIdeal.Read.val_main_v5 (F := Ideal) x := rfl
theorem conn_eq11 (x : (⟨Cert.ReferenceIdeal.S1048576, .i32⟩ : BufTy).Contents (Elt Ideal)) :
    Cert.KernelIdeal.Arr.conn x = Cert.ReferenceIdeal.Read.val_main_v11 (F := Ideal) x := rfl
theorem cscal_eq (x6 : (⟨Cert.ReferenceIdeal.S1, .f32⟩ : BufTy).Contents (Elt Ideal)) :
    Cert.KernelIdeal.Arr.cscal x6 = Cert.ReferenceIdeal.Read.val_main_v12 (F := Ideal) x6 := rfl

/-- Both programs end with every graph's value — in the kernel's arrangement on one side, through the bordered
    matrix on the other — divided by the same converted sum of the size arrays. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v47_eq, a0, a1, a2, a3, a4, a5, a6]
  unfold Cert.ReferenceIdeal.Read.val_main_v47
  refine congrArg₂ (Host.divf (F := Ideal)) (funext fun y => ?_) rfl
  have hy : y = ix1 (y 0 : Fin 512) := eq_ix1 (n := 512) y
  refine (congrArg _ hy).trans ?_
  refine (Cert.ReferenceIdeal.RefValue.ref_apply _ _ _ _ _ (y 0)).trans ?_
  rw [← conn_eq5, ← conn_eq11, ← cscal_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
